-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x256 : Shape := ⟨2, ![320000, 256]⟩
abbrev S320000x16 : Shape := ⟨2, ![320000, 16]⟩
abbrev S320000 : Shape := ⟨1, ![320000]⟩
abbrev S16x256 : Shape := ⟨2, ![16, 256]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S_ : Shape := ⟨0, ![]⟩

class Facts : Prop where
  bcast_S_S320000x256 : S_.BroadcastsInDim S320000x256 (![] : Fin 0 → Fin S320000x256.rank)
  reducesTo_S320000x256_S_d0_1 : S320000x256.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S16x256 : S_.BroadcastsInDim S16x256 (![] : Fin 0 → Fin S16x256.rank)
  reducesTo_S16x256_S_d0_1 : S16x256.ReducesTo [0, 1] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_

variable [Facts]

def fn_part2 {F : FTy → Type} [FloatOps F] (main_arg8 : FVec F S512 .f32) (main_arg9 : FVec F S512x1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg9
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  main_v43

def fn_part1 {F : FTy → Type} [FloatOps F] (main_arg5 : FVec F S512x512 .f32) (main_arg6 : FVec F S512 .f32) (main_arg7 : FVec F S512x512 .f32) (main_arg8 : FVec F S512 .f32) (main_arg9 : FVec F S512x1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_v33

def fn {F : FTy → Type} [FloatOps F] (main_arg0 : FVec F S320000x256 .f32) (main_arg1 : FVec F S320000x16 .f32) (main_arg2 : IVec S320000 32) (main_arg3 : FVec F S16x256 .f32) (main_arg4 : FVec F S256x512 .f32) (main_arg5 : FVec F S512x512 .f32) (main_arg6 : FVec F S512 .f32) (main_arg7 : FVec F S512x512 .f32) (main_arg8 : FVec F S512 .f32) (main_arg9 : FVec F S512x1 .f32) : IVec S_ 1 :=
  let main_v0 : FVec F S320000x256 .f32 := Host.absf main_arg0
  let main_cst : FVec F S_ .f32 := constant S_ .f32 0x7F800000#32
  let main_v1 : FVec F S320000x256 .f32 := broadcastInDim S320000x256 ![] bcast_S_S320000x256 main_cst
  let main_v2 : IVec S320000x256 1 := cmpf .olt main_v0 main_v1
  let main_c : IVec S_ 1 := constantI S_ 1 1#1
  let main_v3 : IVec S_ 1 := (fun x v => Host.reduce IntOp.andi x v reducesTo_S320000x256_S_d0_1 h_S_) main_v2 main_c
  let main_v4 : FVec F S320000x16 .f32 := Host.absf main_arg1
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S16x256 .f32 := Host.absf main_arg3
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_arg6 main_arg7 main_arg8 main_arg9 main_v13 main_v16
-- ==== Kernel.lean ====
abbrev S320000x256 : Shape := ⟨2, ![320000, 256]⟩
abbrev S320000x16 : Shape := ⟨2, ![320000, 16]⟩
abbrev S320000 : Shape := ⟨1, ![320000]⟩
abbrev S16x256 : Shape := ⟨2, ![16, 256]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S8000x256 : Shape := ⟨2, ![8000, 256]⟩
abbrev S8000x16 : Shape := ⟨2, ![8000, 16]⟩
abbrev S_ : Shape := ⟨0, ![]⟩
abbrev S10000x256 : Shape := ⟨2, ![10000, 256]⟩
abbrev S320000x1 : Shape := ⟨2, ![320000, 1]⟩
abbrev S1x512 : Shape := ⟨2, ![1, 512]⟩
abbrev S10000x1 : Shape := ⟨2, ![10000, 1]⟩
abbrev S2000x256 : Shape := ⟨2, ![2000, 256]⟩
abbrev S2000x1 : Shape := ⟨2, ![2000, 1]⟩
abbrev S2000x512 : Shape := ⟨2, ![2000, 512]⟩

abbrev nBuf : Space → Nat
  | .hbm => 18
  | .vmem => 17
  | .smem => 0
  | _ => 0

abbrev bufTy : (tb : Table) → Fin (tcTables nBuf tb) → BufTy
  | .hbm, ⟨0, _⟩ => ⟨S320000x256, .f32⟩
  | .hbm, ⟨1, _⟩ => ⟨S320000x16, .f32⟩
  | .hbm, ⟨2, _⟩ => ⟨S320000, .i32⟩
  | .hbm, ⟨3, _⟩ => ⟨S16x256, .f32⟩
  | .hbm, ⟨4, _⟩ => ⟨S256x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S320000x256, .f32⟩
  | .hbm, ⟨11, _⟩ => ⟨S_, .f32⟩
  | .hbm, ⟨12, _⟩ => ⟨S10000x256, .f32⟩
  | .hbm, ⟨13, _⟩ => ⟨S320000x1, .i32⟩
  | .hbm, ⟨14, _⟩ => ⟨S10000x256, .f32⟩
  | .hbm, ⟨15, _⟩ => ⟨S1x512, .f32⟩
  | .hbm, ⟨16, _⟩ => ⟨S1x512, .f32⟩
  | .hbm, ⟨17, _⟩ => ⟨S10000x1, .f32⟩
  | .local _ .vmem, ⟨0, _⟩ => ⟨S8000x256, .f32⟩
  | .local _ .vmem, ⟨1, _⟩ => ⟨S8000x256, .f32⟩
  | .local _ .vmem, ⟨2, _⟩ => ⟨S8000x16, .f32⟩
  | .local _ .vmem, ⟨3, _⟩ => ⟨S8000x16, .f32⟩
  | .local _ .vmem, ⟨4, _⟩ => ⟨S16x256, .f32⟩
  | .local _ .vmem, ⟨5, _⟩ => ⟨S8000x256, .f32⟩
  | .local _ .vmem, ⟨6, _⟩ => ⟨S8000x256, .f32⟩
  | .local _ .vmem, ⟨7, _⟩ => ⟨S2000x256, .f32⟩
  | .local _ .vmem, ⟨8, _⟩ => ⟨S2000x256, .f32⟩
  | .local _ .vmem, ⟨9, _⟩ => ⟨S256x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x1, .f32⟩
  | .local _ .vmem, ⟨15, _⟩ => ⟨S2000x1, .f32⟩
  | .local _ .vmem, ⟨16, _⟩ => ⟨S2000x1, .f32⟩
  | _, _ => ⟨S320000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S8000x16_S8000x16_0_0 : ∀ a, (![0, 0] : Fin 2 → Nat) a + S8000x16.size a ≤ S8000x16.size a
  h_S8000x16 : 0 < S8000x16.numel
  inb_S16x256_S16x256_0_0 : ∀ a, (![0, 0] : Fin 2 → Nat) a + S16x256.size a ≤ S16x256.size a
  h_S16x256 : 0 < S16x256.numel
  inb_S8000x256_S8000x256_0_0 : ∀ a, (![0, 0] : Fin 2 → Nat) a + S8000x256.size a ≤ S8000x256.size a
  h_S8000x256 : 0 < S8000x256.numel
  bcast_S_S10000x256 : S_.BroadcastsInDim S10000x256 (![] : Fin 0 → Fin S10000x256.rank)
  bcast_S320000_S320000x1_0 : S320000.BroadcastsInDim S320000x1 (![0] : Fin 1 → Fin S320000x1.rank)
  shapeCasts_S512_S1x512 : S512.ShapeCasts S1x512
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x1_S512x1_0_0 : ∀ a, (![0, 0] : Fin 2 → Nat) a + S512x1.size a ≤ S512x1.size a
  h_S512x1 : 0 < S512x1.numel
  inb_S2000x1_S2000x1_0_0 : ∀ a, (![0, 0] : Fin 2 → Nat) a + S2000x1.size a ≤ S2000x1.size a
  h_S2000x1 : 0 < S2000x1.numel
  dot_S8000x16_S16x256_S8000x256_1_0_0_1_n_n_wf : DotDims.WF S8000x16 S16x256 S8000x256 [1] [0] [0] [1] [] []
  scatter_S10000x256_S320000x1_S320000x256_1_0_0_1_wf : ScatterDims.WF S10000x256 S320000x1 S320000x256 [1] [0] [0] 1
  dot_S2000x256_S256x512_S2000x512_1_0_0_1_n_n_wf : DotDims.WF S2000x256 S256x512 S2000x512 [1] [0] [0] [1] [] []
  dot_S2000x512_S512x512_S2000x512_1_0_0_1_n_n_wf : DotDims.WF S2000x512 S512x512 S2000x512 [1] [0] [0] [1] [] []
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S320000x256.size a
  hwx0_0 : ∀ i : grid0.Coords, EltTy.bits .f32 = 32 ∨ (Rect.block (s := S320000x256) S8000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S320000x16.size a
  hwx0_1 : ∀ i : grid0.Coords, EltTy.bits .f32 = 32 ∨ (Rect.block (s := S320000x16) S8000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x256.size a ≤ S320000x256.size a
  hwx0_3 : ∀ i : grid0.Coords, EltTy.bits .f32 = 32 ∨ (Rect.block (s := S320000x256) S8000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S512x1.size a
  hwx1_6 : ∀ i : grid1.Coords, EltTy.bits .f32 = 32 ∨ (Rect.block (s := S512x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S10000x1.size a
  hwx1_7 : ∀ i : grid1.Coords, EltTy.bits .f32 = 32 ∨ (Rect.block (s := S10000x1) S2000x1.size (cc1_transform_7 i) (hinb1_7 i)).WholeWords (EltTy.packing .f32)

variable [Facts₀]

def dot_S8000x16_S16x256_S8000x256_1_0_0_1_n_n : DotDims S8000x16 S16x256 S8000x256 where
  lhsContracting := [1]
  rhsContracting := [0]
  lhsNonContracting := [0]
  rhsNonContracting := [1]
  lhsBatch := []
  rhsBatch := []
  wf := dot_S8000x16_S16x256_S8000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_arg0) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S512x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S2000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S320000x256 : Shape := ⟨2, ![320000, 256]⟩
abbrev S320000x16 : Shape := ⟨2, ![320000, 16]⟩
abbrev S320000 : Shape := ⟨1, ![320000]⟩
abbrev S16x256 : Shape := ⟨2, ![16, 256]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S_ : Shape := ⟨0, ![]⟩
abbrev S10000x256 : Shape := ⟨2, ![10000, 256]⟩
abbrev S320000x1 : Shape := ⟨2, ![320000, 1]⟩
abbrev S10000x512 : Shape := ⟨2, ![10000, 512]⟩
abbrev S1x512 : Shape := ⟨2, ![1, 512]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S320000x256, .f32⟩
  | .hbm, ⟨1, _⟩ => ⟨S320000x16, .f32⟩
  | .hbm, ⟨2, _⟩ => ⟨S320000, .i32⟩
  | .hbm, ⟨3, _⟩ => ⟨S16x256, .f32⟩
  | .hbm, ⟨4, _⟩ => ⟨S256x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S320000x256, .f32⟩
  | .hbm, ⟨11, _⟩ => ⟨S320000x256, .f32⟩
  | .hbm, ⟨12, _⟩ => ⟨S_, .f32⟩
  | .hbm, ⟨13, _⟩ => ⟨S10000x256, .f32⟩
  | .hbm, ⟨14, _⟩ => ⟨S320000x1, .i32⟩
  | .hbm, ⟨15, _⟩ => ⟨S10000x256, .f32⟩
  | .hbm, ⟨16, _⟩ => ⟨S10000x512, .f32⟩
  | .hbm, ⟨17, _⟩ => ⟨S10000x512, .f32⟩
  | .hbm, ⟨18, _⟩ => ⟨S1x512, .f32⟩
  | .hbm, ⟨19, _⟩ => ⟨S10000x512, .f32⟩
  | .hbm, ⟨20, _⟩ => ⟨S10000x512, .f32⟩
  | .hbm, ⟨21, _⟩ => ⟨S10000x512, .f32⟩
  | .hbm, ⟨22, _⟩ => ⟨S10000x512, .f32⟩
  | .hbm, ⟨23, _⟩ => ⟨S_, .f32⟩
  | .hbm, ⟨24, _⟩ => ⟨S10000x512, .f32⟩
  | .hbm, ⟨25, _⟩ => ⟨S10000x512, .f32⟩
  | .hbm, ⟨26, _⟩ => ⟨S_, .f32⟩
  | .hbm, ⟨27, _⟩ => ⟨S10000x512, .f32⟩
  | .hbm, ⟨28, _⟩ => ⟨S10000x512, .f32⟩
  | .hbm, ⟨29, _⟩ => ⟨S10000x512, .f32⟩
  | .hbm, ⟨30, _⟩ => ⟨S10000x512, .f32⟩
  | .hbm, ⟨31, _⟩ => ⟨S1x512, .f32⟩
  | .hbm, ⟨32, _⟩ => ⟨S10000x512, .f32⟩
  | .hbm, ⟨33, _⟩ => ⟨S10000x512, .f32⟩
  | .hbm, ⟨34, _⟩ => ⟨S10000x512, .f32⟩
  | .hbm, ⟨35, _⟩ => ⟨S10000x512, .f32⟩
  | .hbm, ⟨36, _⟩ => ⟨S_, .f32⟩
  | .hbm, ⟨37, _⟩ => ⟨S10000x512, .f32⟩
  | .hbm, ⟨38, _⟩ => ⟨S10000x512, .f32⟩
  | .hbm, ⟨39, _⟩ => ⟨S_, .f32⟩
  | .hbm, ⟨40, _⟩ => ⟨S10000x512, .f32⟩
  | .hbm, ⟨41, _⟩ => ⟨S10000x512, .f32⟩
  | .hbm, ⟨42, _⟩ => ⟨S10000x512, .f32⟩
  | .hbm, ⟨43, _⟩ => ⟨S10000x1, .f32⟩
  | _, _ => ⟨S320000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v15 : Ref sig .tc := ⟨.hbm, 42, rfl⟩
abbrev main_v16 : Ref sig .tc := ⟨.hbm, 43, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  bcast_S320000_S320000x1_0 : S320000.BroadcastsInDim S320000x1 (![0] : Fin 1 → Fin S320000x1.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S320000x16_S16x256_S320000x256_1_0_0_1_n_n_wf : DotDims.WF S320000x16 S16x256 S320000x256 [1] [0] [0] [1] [] []
  scatter_S10000x256_S320000x1_S320000x256_1_0_0_1_wf : ScatterDims.WF S10000x256 S320000x1 S320000x256 [1] [0] [0] 1
  dot_S10000x256_S256x512_S10000x512_1_0_0_1_n_n_wf : DotDims.WF S10000x256 S256x512 S10000x512 [1] [0] [0] [1] [] []
  dot_S10000x512_S512x512_S10000x512_1_0_0_1_n_n_wf : DotDims.WF S10000x512 S512x512 S10000x512 [1] [0] [0] [1] [] []
  dot_S10000x512_S512x1_S10000x1_1_0_0_1_n_n_wf : DotDims.WF S10000x512 S512x1 S10000x1 [1] [0] [0] [1] [] []

variable [Facts₀]

def dot_S320000x16_S16x256_S320000x256_1_0_0_1_n_n : DotDims S320000x16 S16x256 S320000x256 where
  lhsContracting := [1]
  rhsContracting := [0]
  lhsNonContracting := [0]
  rhsNonContracting := [1]
  lhsBatch := []
  rhsBatch := []
  wf := dot_S320000x16_S16x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x1_S10000x1_1_0_0_1_n_n : DotDims S10000x512 S512x1 S10000x1 where
  lhsContracting := [1]
  rhsContracting := [0]
  lhsNonContracting := [0]
  rhsNonContracting := [1]
  lhsBatch := []
  rhsBatch := []
  wf := dot_S10000x512_S512x1_S10000x1_1_0_0_1_n_n_wf

class Facts : Prop extends Facts₀ where

variable [Facts]
-- ==== Proof.KernelRun.lean ====
/-
  The idealized kernel's run with its result buffer NAMED.

  The program is three segments: the gate region (40 row blocks of 8000 edges), a stretch of six host operations
  (the zero array, the index column, the scatter-add, the two bias rows reshaped to [1, 512]), and the dense-stack region
  (5 row blocks of 2000 particles).  The buffer contents at the segment boundaries are a fold from the launch
  memory: after the first region its arrays hold what its write-backs leave, after the host stretch the operations'
  results are added, after the second region likewise.  Every weakly fair execution terminates in a state whose
  unscoped buffers hold the last boundary's contents; reading that state at the result buffer and at each argument gives:
  the result is the last boundary's contents there, and the arguments are as launched.
-/
import proofs.«104397_j83665962926265_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this statement, which takes unfolding plain
-- definitions in a metavariable's type
set_option backward.isDefEq.respectTransparency.types false in
/-- Every weakly fair execution of the program terminates; the result buffer ends at the last boundary's contents
    `W3`, and each argument array ends as launched. -/
theorem run : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no ghost resource per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      -- the first thread state: every unscoped buffer at the launch contents, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      -- the last thread state read against the final state: every unscoped buffer holds `W3`
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Named

end
-- ==== Proof.Spec.lean ====
/-
  The function both programs compute, over the extended reals.

  An edge `e` carries a message row `msg e ·` (256 entries) and a radial-basis row `rbf e ·` (16 entries).  The gate is
  `gated e j = msg e j · Σ_k rbf e k · W_rbf k j`.  The gated rows are summed per receiving particle (a scatter-add by
  the index array, carried through this certificate as one unopened function of its three operands), giving a
  [10000, 256] array `s`.  Each particle's row then passes, independently of every other row, through

      u  = s_row · W_up                       (256 → 512)
      h0 = u · W_d0 + b_d0 ,  a0 = swish h0    (512 → 512)
      h1 = a0 · W_d1 + b_d1 , a1 = swish h1    (512 → 512)
      out = a1 · W_final                       (512 → 1)

  with `swish h = h · logistic h` and `logistic h = 1 / (1 + exp (-h))`.  Because every stage after the scatter-add acts
  on one row at a time, a block of rows of the result is the same row function applied to that block of rows of `s`:
  this is what lets a row-tiled evaluation meet a whole-array one.  All sums are finite sums of extended reals in the
  textbook order-free sense (`Finset.sum`), so no finiteness of the entries is needed anywhere.
-/
import Idealize.ShloMosaic.PureOps.Ideal
import Idealize.ShloMosaic.PureOps.Ideal.Laws
import Idealize.ShloMosaic.Lib.ValueIdx

noncomputable section

namespace Cert.GateMlp

open Idealize.ShloMosaic Idealize.ShloMosaic.ValueIdx

/-- Entry `b` of the row vector `x` times the matrix `w`: `Σ_k x k · w k b`. -/
def rowDot {K B : Nat} (x : Fin K → EReal) (w : (⟨2, ![K, B]⟩ : Shape).Idx → EReal) (b : Fin B) : EReal :=
  ∑ k : Fin K, x k * w (ix2 k b)

/-- `swish h = h · logistic h`. -/
def swish (h : EReal) : EReal := h * Ideal.logistic h

/-- One gated entry: the message entry times the radial-basis row projected on column `j`. -/
def gateAt {E K J : Nat} (msg : (⟨2, ![E, J]⟩ : Shape).Idx → EReal) (rbf : (⟨2, ![E, K]⟩ : Shape).Idx → EReal)
    (w : (⟨2, ![K, J]⟩ : Shape).Idx → EReal) (e : Fin E) (j : Fin J) : EReal :=
  msg (ix2 e j) * rowDot (fun k => rbf (ix2 e k)) w j

/-- The gated array, index by index. -/
def gate {E K J : Nat} (msg : (⟨2, ![E, J]⟩ : Shape).Idx → EReal) (rbf : (⟨2, ![E, K]⟩ : Shape).Idx → EReal)
    (w : (⟨2, ![K, J]⟩ : Shape).Idx → EReal) : (⟨2, ![E, J]⟩ : Shape).Idx → EReal :=
  fun i => gateAt msg rbf w ⟨(i 0).val, idx2_lt0 i⟩ ⟨(i 1).val, idx2_lt1 i⟩

/-- The dense stack applied to ONE row `x` of the summed array; `b0`, `b1` are the two bias rows. -/
def mlpRow (x : Fin 256 → EReal) (wup : (⟨2, ![256, 512]⟩ : Shape).Idx → EReal) (wd0 : (⟨2, ![512, 512]⟩ : Shape).Idx → EReal)
    (b0 : Fin 512 → EReal) (wd1 : (⟨2, ![512, 512]⟩ : Shape).Idx → EReal) (b1 : Fin 512 → EReal)
    (wf : (⟨2, ![512, 1]⟩ : Shape).Idx → EReal) (q : Fin 1) : EReal :=
  rowDot (fun k => swish (rowDot (fun j => swish (rowDot (rowDot x wup) wd0 j + b0 j)) wd1 k + b1 k)) wf q

/-- The dense stack on an array of `R` rows, index by index: row `i 0` of the result is `mlpRow` of row `i 0` of `s`.
    The two bias rows are given as functions of the column. -/
def mlpRows {R : Nat} (s : (⟨2, ![R, 256]⟩ : Shape).Idx → EReal) (wup : (⟨2, ![256, 512]⟩ : Shape).Idx → EReal)
    (wd0 : (⟨2, ![512, 512]⟩ : Shape).Idx → EReal) (b0 : Fin 512 → EReal)
    (wd1 : (⟨2, ![512, 512]⟩ : Shape).Idx → EReal) (b1 : Fin 512 → EReal)
    (wf : (⟨2, ![512, 1]⟩ : Shape).Idx → EReal) : (⟨2, ![R, 1]⟩ : Shape).Idx → EReal :=
  fun i => mlpRow (fun n => s (ix2 ⟨(i 0).val, idx2_lt0 i⟩ n)) wup wd0 b0 wd1 b1 wf ⟨(i 1).val, idx2_lt1 i⟩

/-- The same with the biases as the [512] arrays the programs are given. -/
def mlp {R : Nat} (s : (⟨2, ![R, 256]⟩ : Shape).Idx → EReal) (wup : (⟨2, ![256, 512]⟩ : Shape).Idx → EReal)
    (wd0 : (⟨2, ![512, 512]⟩ : Shape).Idx → EReal) (b0 : (⟨1, ![512]⟩ : Shape).Idx → EReal)
    (wd1 : (⟨2, ![512, 512]⟩ : Shape).Idx → EReal) (b1 : (⟨1, ![512]⟩ : Shape).Idx → EReal)
    (wf : (⟨2, ![512, 1]⟩ : Shape).Idx → EReal) : (⟨2, ![R, 1]⟩ : Shape).Idx → EReal :=
  mlpRows s wup wd0 (fun j => b0 (ix1 j)) wd1 (fun k => b1 (ix1 k)) wf

/-- The f32 word `0x3F800000` denotes the real number one. -/
theorem ofBits_one_f32 : Ideal.ofBits .f32 0x3F800000#32 = 1 := by
  simp [Ideal.ofBits, Ideal.ieee, -EReal.coe_mul]; norm_num

/-- The sigmoid spelt out as negate, exponential, add one, divide one by it IS `logistic`. -/
theorem spelt_logistic (h : EReal) : Ideal.div 1 (1 + Ideal.exp (-h)) = Ideal.logistic h := rfl

end Cert.GateMlp

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.GateBlocks.lean ====
/-
  The gate region's output array.

  Grid point `t` (of 40) loads rows `8000 t … 8000 t + 7999` of the messages ([8000, 256]) and of the radial-basis
  rows ([8000, 16]) and the whole projection matrix ([16, 256]); it stores, at local entry (p, j),
  `msg (p, j) · Σ_k rbf (p, k) · W (k, j)` — the message entry times one entry of a matrix product into a zero
  accumulator — and writes the block back to rows `8000 t …` of the output.  A gated entry depends only on its own
  edge's rows, so the block written at point `t` is rows `8000 t …` of the whole-array function `gate`; the 40 blocks
  tile the 320000 rows, so the output array ends at `gate` of the three arrays as the region found them.
-/
import proofs.«104397_j83665962926265_1_alg».proof.Proof.Gen.KernelIdeal.Frame
import proofs.«104397_j83665962926265_1_alg».proof.Proof.Spec
import proofs.«104397_j83665962926265_1_alg».proof.Proof.LibPlainDot
import Idealize.ShloMosaic.Lib.Pipeline.Value
import Idealize.ShloMosaic.Lib.ValueIdx

set_option maxRecDepth 16384

noncomputable section

namespace Cert.KernelIdeal.GateBlocks

open Cert.KernelIdeal Cert.KernelIdeal.Gen Cert.GateMlp Cert.LibPlainDot
open Idealize.ShloMosaic Idealize.ShloMosaic.TcCoe Idealize.ShloMosaic.ValueIdx Idealize.SL.Sem
open Idealize.ShloMosaic.Pipeline (Dat)

/-- The gate's product contracts the 16 radial-basis entries: a plain [8000, 16] × [16, 256] product. -/
theorem plain_gate : Plain dot_S8000x16_S16x256_S8000x256_1_0_0_1_n_n := ⟨rfl, rfl, rfl, rfl, rfl, rfl⟩

/-- The stored value at local entry `(p, j)`: the message entry times the projected radial-basis row. -/
theorem pay_apply (rbf : Vec Ideal S8000x16 .f32) (w : Vec Ideal S16x256 .f32) (msg : Vec Ideal S8000x256 .f32)
    (p : Fin 8000) (j : Fin 256) :
    k0_pay1 (F := Ideal) rbf w msg (ix2 p j) = msg (ix2 p j) * rowDot (fun k => rbf (ix2 p k)) w j :=
  congrArg (msg (ix2 p j) * ·) (plain_gate.matmul_zero_apply none rbf w p j)

theorem hz : (![0, 0] : Fin 2 → Nat) = fun _ => 0 := funext fun a => by fin_cases a <;> rfl

-- the arrays as the region finds them
variable (V : (c : Dev nD) → (b : Ref sig .tc) → Buf (Elt Ideal) ((c : Thread nD τ).loc b))

/-- Where each window's block sits at point `t`: the two row-tiled inputs and the output at row block `t`, column block
    0; the projection matrix at block (0, 0). Decided over the 40 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The message block at point `t` is rows `8000 t …` of the message array. -/
theorem msg_blk (c : Dev nD) (t : Fin cfg0.N) (x : S8000x256.Idx) (k : S320000x256.Idx)
    (hk0 : (k 0).val = 8000 * t.val + (x 0).val) (hk1 : (k 1).val = (x 1).val) :
    (iblk0 V c 0 t : Vec Ideal S8000x256 .f32) x = (V c main_arg0 : S320000x256.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 8000 + 1 * (x 0).val = (k 0).val; rw [e0, hk0]; omega
  | ⟨1, _⟩ => show win0_0.index t 1 * 256 + 1 * (x 1).val = (k 1).val; rw [e1, hk1]; omega

/-- The radial-basis block at point `t` is rows `8000 t …` of the radial-basis array. -/
theorem rbf_blk (c : Dev nD) (t : Fin cfg0.N) (x : S8000x16.Idx) (k : S320000x16.Idx)
    (hk0 : (k 0).val = 8000 * t.val + (x 0).val) (hk1 : (k 1).val = (x 1).val) :
    (iblk0 V c 1 t : Vec Ideal S8000x16 .f32) x = (V c main_arg1 : S320000x16.Idx → EReal) k := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t 0 * 8000 + 1 * (x 0).val = (k 0).val; rw [e0, hk0]; omega
  | ⟨1, _⟩ => show win0_1.index t 1 * 16 + 1 * (x 1).val = (k 1).val; rw [e1, hk1]; omega

/-- The projection matrix's block at every point is the whole matrix. -/
theorem w_blk (c : Dev nD) (t : Fin cfg0.N) :
    (iblk0 V c 2 t : Vec Ideal S16x256 .f32) = (V c main_arg3 : S16x256.Idx → EReal) := by
  obtain ⟨-, -, -, -, e0, e1, -⟩ := idx_facts t
  funext x
  unfold iblk0
  rw [View.read_apply]
  show V c main_arg3 _ = V c main_arg3 _
  congr 1
  funext a
  apply Fin.ext
  match a with
  | ⟨0, _⟩ => show win0_2.index t 0 * 16 + 1 * (x 0).val = (x 0).val; rw [e0]; omega
  | ⟨1, _⟩ => show win0_2.index t 1 * 256 + 1 * (x 1).val = (x 1).val; rw [e1]; omega

/-- WHAT POINT `t` WRITES BACK is block `t` of `gate` of the three arrays as the region finds them. -/
theorem flushed_eq (c : Dev nD) (t : Fin cfg0.N) :
    (dat0 V c).flushed 3 t
      = ((cfg0.win 3).blk t).view.read (Elt Ideal) (gate (V c main_arg0) (V c main_arg1) (V c main_arg3)) := by
  show (cfg0.win 3).cut (grid0.coords t) ((dat0 V c).after 3 t) = _
  rw [after0_3]
  unfold out0_3
  rw [View.canon_unit_zero hz]
  simp only [View.ld_unit_zero (S := S8000x16) hz, View.ld_unit_zero (S := S16x256) hz, View.ld_unit_zero (S := S8000x256) hz]
  obtain ⟨-, -, -, -, -, -, e0, e1⟩ := idx_facts t
  funext y
  obtain ⟨p, j, rfl⟩ : ∃ (p : Fin 8000) (j : Fin 256), y = ix2 p j := ⟨y 0, y 1, eq_ix2 y⟩
  refine (pay_apply (iblk0 V c 1 t) (iblk0 V c 2 t) (iblk0 V c 0 t) p j).trans ?_
  rw [w_blk V c t]
  -- the output index the block's entry (p, j) sits at
  have hr : 8000 * t.val + p.val < 320000 := by have := t.isLt; have hN : cfg0.N = 40 := N_0; have := p.isLt; omega
  have hrow : ∀ k : Fin 16, (iblk0 V c 1 t : Vec Ideal S8000x16 .f32) (ix2 p k)
      = (V c main_arg1 : S320000x16.Idx → EReal) (ix2 ⟨8000 * t.val + p.val, hr⟩ k) :=
    fun k => rbf_blk V c t (ix2 p k) (ix2 ⟨8000 * t.val + p.val, hr⟩ k) rfl rfl
  rw [msg_blk V c t (ix2 p j) (ix2 ⟨8000 * t.val + p.val, hr⟩ j) rfl rfl, funext hrow]
  rw [View.read_apply]
  show _ = gateAt _ _ _ _ _
  have hi0 : (⟨((((cfg0.win 3).blk t).view.emb (ix2 p j)) 0).val, idx2_lt0 _⟩ : Fin 320000) = ⟨8000 * t.val + p.val, hr⟩ :=
    Fin.ext (by show win0_3.index t 0 * 8000 + 1 * p.val = 8000 * t.val + p.val; rw [e0]; omega)
  have hi1 : (⟨((((cfg0.win 3).blk t).view.emb (ix2 p j)) 1).val, idx2_lt1 _⟩ : Fin 256) = j :=
    Fin.ext (by show win0_3.index t 1 * 256 + 1 * j.val = j.val; rw [e1]; omega)
  rw [hi0, hi1]
  rfl

/-- An index of the output array is in point `t`'s block iff each coordinate is in the block's range on its axis. -/
theorem mem_blk (t : Fin cfg0.N) (i : S320000x256.Idx) :
    i ∈ ((cfg0.win 3).blk t).view.set ↔ ∀ a : Fin 2, win0_3.index t a * S8000x256.size a ≤ (i a).val
      ∧ (i a).val < win0_3.index t a * S8000x256.size a + S8000x256.size a := by
  show i ∈ ((View.whole main_v0).slice (win0_3.rect t)).set ↔ _
  rw [View.set_slice_whole, Rect.mem_set_unit]
  exact Iff.rfl

/-- Every index of the output array is in the block of the point its row falls in. -/
theorem cover (i : S320000x256.Idx) :
    ∃ t : Fin cfg0.N, (cfg0.win 3).flush t = true ∧ i ∈ ((cfg0.win 3).blk t).view.set := by
  have hi0 : (i 0).val < 320000 := (i 0).isLt
  have hi1 : (i 1).val < 256 := (i 1).isLt
  have hN : cfg0.N = 40 := N_0
  refine ⟨⟨(i 0).val / 8000, by rw [hN]; omega⟩, flush0_3 _, ?_⟩
  rw [mem_blk]
  obtain ⟨-, -, -, -, -, -, e0, e1⟩ := idx_facts ⟨(i 0).val / 8000, by rw [hN]; omega⟩
  intro a
  match a with
  | ⟨0, _⟩ =>
    show win0_3.index _ 0 * 8000 ≤ (i 0).val ∧ (i 0).val < win0_3.index _ 0 * 8000 + 8000
    rw [e0]; show (i 0).val / 8000 * 8000 ≤ (i 0).val ∧ (i 0).val < (i 0).val / 8000 * 8000 + 8000; omega
  | ⟨1, _⟩ =>
    show win0_3.index _ 1 * 256 ≤ (i 1).val ∧ (i 1).val < win0_3.index _ 1 * 256 + 256
    rw [e1]; omega

/-- THE REGION'S OUTPUT ARRAY after its 40 write-backs: `gate` of the arrays as the region finds them. -/
theorem final (c : Dev nD) :
    (dat0 V c).arrAt 3 cfg0.N = gate (V c main_arg0) (V c main_arg1) (V c main_arg3) :=
  (dat0 V c).arrAt_eq_of_cover 3 _ (fun t _ => flushed_eq V c t) cover

end Cert.KernelIdeal.GateBlocks

end
-- ==== Proof.MlpBlocks.lean ====
/-
  The dense-stack region's output array.

  Grid point `t` (of 5) loads rows `2000 t … 2000 t + 1999` of the summed array ([2000, 256]) and, whole, the four
  weight matrices and the two bias rows ([1, 512] each); it computes, for its 2000 rows at once,

      u = x · W_up ,  h0 = u · W_d0 + b0 ,  a0 = h0 · logistic h0 ,  h1 = a0 · W_d1 + b1 ,  a1 = h1 · logistic h1 ,  out = a1 · W_final

  (each product into a zero accumulator, each bias row broadcast over the rows) and writes the [2000, 1] block back to
  rows `2000 t …` of the output.  Entry (p, q) of every stage depends on row `p` of the stage before only, so the stored
  entry is the one-row function `mlpRow` of row `p` of the loaded block; row `p` of the block is row `2000 t + p` of the
  summed array, so the block is rows `2000 t …` of `mlpRows` of the arrays as the region found them, and the five blocks
  tile the 10000 rows.
-/
import proofs.«104397_j83665962926265_1_alg».proof.Proof.Gen.KernelIdeal.Frame
import proofs.«104397_j83665962926265_1_alg».proof.Proof.Spec
import proofs.«104397_j83665962926265_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.MlpBlocks

open Cert.KernelIdeal Cert.KernelIdeal.Gen Cert.GateMlp Cert.LibPlainDot
open Idealize.ShloMosaic Idealize.ShloMosaic.TcCoe Idealize.ShloMosaic.ValueIdx Idealize.SL.Sem
open Idealize.ShloMosaic.Pipeline (Dat)

/-- The three shapes of product in the body are plain: 256 → 512, 512 → 512 (twice), 512 → 1. -/
theorem plain_up : Plain dot_S2000x256_S256x512_S2000x512_1_0_0_1_n_n := ⟨rfl, rfl, rfl, rfl, rfl, rfl⟩
theorem plain_hid : Plain dot_S2000x512_S512x512_S2000x512_1_0_0_1_n_n := ⟨rfl, rfl, rfl, rfl, rfl, rfl⟩
theorem plain_fin : Plain dot_S2000x512_S512x1_S2000x1_1_0_0_1_n_n := ⟨rfl, rfl, rfl, rfl, rfl, rfl⟩

/-- A hidden layer before its activation, at entry `(p, c)`: row `p` of the input times column `c` of the weights, plus
    the bias row's entry `c` (the bias is a [1, 512] row cast to its own shape and broadcast over the 2000 rows). -/
theorem layer_apply (s : FVec Ideal S2000x512 .f32) (w : FVec Ideal S512x512 .f32) (b : FVec Ideal S1x512 .f32)
    (hc : S1x512.ShapeCasts S1x512) (hb : S1x512.Broadcasts S2000x512) (p : Fin 2000) (c : Fin 512) :
    addf (matmul dot_S2000x512_S512x512_S2000x512_1_0_0_1_n_n none s w (constant S2000x512 .f32 0x00000000#32))
        (broadcastTo S2000x512 (shapeCast S1x512 b hc) hb) (ix2 p c)
      = rowDot (fun k => s (ix2 p k)) w c + b (ix2 (0 : Fin 1) c) := by
  rw [shapeCast_self]
  exact congrArg₂ (· + ·) (plain_hid.matmul_zero_apply none s w p c) (broadcastTo_1b_ab_apply b hb p c)

/-- The activation `h · logistic h` at an entry. -/
theorem act_apply (h : FVec Ideal S2000x512 .f32) (i : S2000x512.Idx) : mulf h (logistic h) i = swish (h i) := rfl

/-- THE STORED VALUE at local entry `(p, q)` is the one-row dense stack of row `p` of the loaded block. -/
theorem pay_apply (x : Vec Ideal S2000x256 .f32) (wup : Vec Ideal S256x512 .f32) (wd0 : Vec Ideal S512x512 .f32)
    (b0 : Vec Ideal S1x512 .f32) (wd1 : Vec Ideal S512x512 .f32) (b1 : Vec Ideal S1x512 .f32) (wf : Vec Ideal S512x1 .f32)
    (p : Fin 2000) (q : Fin 1) :
    k1_pay1 (F := Ideal) x wup wd0 b0 wd1 b1 wf (ix2 p q)
      = mlpRow (fun n => x (ix2 p n)) wup wd0 (fun j => b0 (ix2 (0 : Fin 1) j)) wd1 (fun k => b1 (ix2 (0 : Fin 1) k)) wf q := by
  unfold k1_pay1 mlpRow
  -- the last product: a sum over the 512 activations of the second hidden layer
  refine (plain_fin.matmul_zero_apply none _ wf p q).trans ?_
  refine Finset.sum_congr rfl fun k _ => congrArg (· * wf (ix2 k q)) ?_
  refine (act_apply _ (ix2 p k)).trans (congrArg swish ?_)
  -- the second hidden layer
  refine (layer_apply _ wd1 b1 _ _ p k).trans ?_
  refine congrArg (fun f => rowDot f wd1 k + b1 (ix2 (0 : Fin 1) k)) (funext fun j => ?_)
  refine (act_apply _ (ix2 p j)).trans (congrArg swish ?_)
  -- the first hidden layer
  refine (layer_apply _ wd0 b0 _ _ p j).trans ?_
  refine congrArg (fun f => rowDot f wd0 j + b0 (ix2 (0 : Fin 1) j)) (funext fun l => ?_)
  -- the up-projection of the loaded row (the load is cast to its own shape first)
  refine (plain_up.matmul_zero_apply none _ wup p l).trans ?_
  rw [shapeCast_self]
  rfl

theorem hz : (![0, 0] : Fin 2 → Nat) = fun _ => 0 := funext fun a => by fin_cases a <;> rfl

-- the arrays as the region finds them
variable (V : (c : Dev nD) → (b : Ref sig .tc) → Buf (Elt Ideal) ((c : Thread nD τ).loc b))

/-- Where each window's block sits at point `t`: the summed array and the output at row block `t`; every weight and
    bias at block (0, 0). Decided over the 5 points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The summed array's block at point `t` is its rows `2000 t …`. -/
theorem sum_blk (c : Dev nD) (t : Fin cfg1.N) (x : S2000x256.Idx) (k : S10000x256.Idx)
    (hk0 : (k 0).val = 2000 * t.val + (x 0).val) (hk1 : (k 1).val = (x 1).val) :
    (iblk1 V c 0 t : Vec Ideal S2000x256 .f32) x = (V c main_v3 : S10000x256.Idx → EReal) k := by
  obtain ⟨e0, e1, -⟩ := idx_facts t
  unfold iblk1
  rw [View.read_apply]
  show V c main_v3 _ = V c main_v3 _
  congr 1
  funext a
  apply Fin.ext
  match a with
  | ⟨0, _⟩ => show win1_0.index t 0 * 2000 + 1 * (x 0).val = (k 0).val; rw [e0, hk0]; omega
  | ⟨1, _⟩ => show win1_0.index t 1 * 256 + 1 * (x 1).val = (k 1).val; rw [e1, hk1]; omega

/-- Each weight's and bias row's block, at every point, is the whole array. -/
theorem wup_blk (c : Dev nD) (t : Fin cfg1.N) :
    (iblk1 V c 1 t : Vec Ideal S256x512 .f32) = (V c main_arg4 : S256x512.Idx → EReal) := by
  obtain ⟨-, -, e0, e1, -⟩ := idx_facts t
  funext x
  unfold iblk1
  rw [View.read_apply]
  show V c main_arg4 _ = V c main_arg4 _
  congr 1
  funext a
  apply Fin.ext
  match a with
  | ⟨0, _⟩ => show win1_1.index t 0 * 256 + 1 * (x 0).val = (x 0).val; rw [e0]; omega
  | ⟨1, _⟩ => show win1_1.index t 1 * 512 + 1 * (x 1).val = (x 1).val; rw [e1]; omega
theorem wd0_blk (c : Dev nD) (t : Fin cfg1.N) :
    (iblk1 V c 2 t : Vec Ideal S512x512 .f32) = (V c main_arg5 : S512x512.Idx → EReal) := by
  obtain ⟨-, -, -, -, e0, e1, -⟩ := idx_facts t
  funext x
  unfold iblk1
  rw [View.read_apply]
  show V c main_arg5 _ = V c main_arg5 _
  congr 1
  funext a
  apply Fin.ext
  match a with
  | ⟨0, _⟩ => show win1_2.index t 0 * 512 + 1 * (x 0).val = (x 0).val; rw [e0]; omega
  | ⟨1, _⟩ => show win1_2.index t 1 * 512 + 1 * (x 1).val = (x 1).val; rw [e1]; omega
theorem b0_blk (c : Dev nD) (t : Fin cfg1.N) :
    (iblk1 V c 3 t : Vec Ideal S1x512 .f32) = (V c main_v4 : S1x512.Idx → EReal) := by
  obtain ⟨-, -, -, -, -, -, e0, e1, -⟩ := idx_facts t
  funext x
  unfold iblk1
  rw [View.read_apply]
  show V c main_v4 _ = V c main_v4 _
  congr 1
  funext a
  apply Fin.ext
  match a with
  | ⟨0, _⟩ => show win1_3.index t 0 * 1 + 1 * (x 0).val = (x 0).val; rw [e0]; omega
  | ⟨1, _⟩ => show win1_3.index t 1 * 512 + 1 * (x 1).val = (x 1).val; rw [e1]; omega
theorem wd1_blk (c : Dev nD) (t : Fin cfg1.N) :
    (iblk1 V c 4 t : Vec Ideal S512x512 .f32) = (V c main_arg7 : S512x512.Idx → EReal) := by
  obtain ⟨-, -, -, -, -, -, -, -, e0, e1, -⟩ := idx_facts t
  funext x
  unfold iblk1
  rw [View.read_apply]
  show V c main_arg7 _ = V c main_arg7 _
  congr 1
  funext a
  apply Fin.ext
  match a with
  | ⟨0, _⟩ => show win1_4.index t 0 * 512 + 1 * (x 0).val = (x 0).val; rw [e0]; omega
  | ⟨1, _⟩ => show win1_4.index t 1 * 512 + 1 * (x 1).val = (x 1).val; rw [e1]; omega
theorem b1_blk (c : Dev nD) (t : Fin cfg1.N) :
    (iblk1 V c 5 t : Vec Ideal S1x512 .f32) = (V c main_v5 : S1x512.Idx → EReal) := by
  obtain ⟨-, -, -, -, -, -, -, -, -, -, e0, e1, -⟩ := idx_facts t
  funext x
  unfold iblk1
  rw [View.read_apply]
  show V c main_v5 _ = V c main_v5 _
  congr 1
  funext a
  apply Fin.ext
  match a with
  | ⟨0, _⟩ => show win1_5.index t 0 * 1 + 1 * (x 0).val = (x 0).val; rw [e0]; omega
  | ⟨1, _⟩ => show win1_5.index t 1 * 512 + 1 * (x 1).val = (x 1).val; rw [e1]; omega
theorem wf_blk (c : Dev nD) (t : Fin cfg1.N) :
    (iblk1 V c 6 t : Vec Ideal S512x1 .f32) = (V c main_arg9 : S512x1.Idx → EReal) := by
  obtain ⟨-, -, -, -, -, -, -, -, -, -, -, -, e0, e1, -⟩ := idx_facts t
  funext x
  unfold iblk1
  rw [View.read_apply]
  show V c main_arg9 _ = V c main_arg9 _
  congr 1
  funext a
  apply Fin.ext
  match a with
  | ⟨0, _⟩ => show win1_6.index t 0 * 512 + 1 * (x 0).val = (x 0).val; rw [e0]; omega
  | ⟨1, _⟩ => show win1_6.index t 1 * 1 + 1 * (x 1).val = (x 1).val; rw [e1]; omega

/-- The region's result as one function of the arrays it finds: the row-wise dense stack, the bias rows read along
    their one row. -/
abbrev result (c : Dev nD) : S10000x1.Idx → EReal :=
  mlpRows (V c main_v3 : S10000x256.Idx → EReal) (V c main_arg4) (V c main_arg5)
    (fun j => (V c main_v4 : S1x512.Idx → EReal) (ix2 (0 : Fin 1) j)) (V c main_arg7)
    (fun k => (V c main_v5 : S1x512.Idx → EReal) (ix2 (0 : Fin 1) k)) (V c main_arg9)

/-- `result` at an index whose row is `r` and whose (only) column is `q`: the one-row dense stack of row `r`. -/
theorem result_at (c : Dev nD) (i : S10000x1.Idx) (r : Fin 10000) (q : Fin 1) (h0 : (i 0).val = r.val) (h1 : (i 1).val = q.val) :
    result V c i = mlpRow (fun n => (V c main_v3 : S10000x256.Idx → EReal) (ix2 r n)) (V c main_arg4) (V c main_arg5)
      (fun j => (V c main_v4 : S1x512.Idx → EReal) (ix2 (0 : Fin 1) j)) (V c main_arg7)
      (fun k => (V c main_v5 : S1x512.Idx → EReal) (ix2 (0 : Fin 1) k)) (V c main_arg9) q := by
  have e0 : (⟨(i 0).val, idx2_lt0 i⟩ : Fin 10000) = r := Fin.ext h0
  have e1 : (⟨(i 1).val, idx2_lt1 i⟩ : Fin 1) = q := Fin.ext h1
  unfold result mlpRows
  rw [e0, e1]

/-- WHAT POINT `t` WRITES BACK is block `t` of `result`. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz]
  simp only [View.ld_unit_zero (S := S2000x256) hz, View.ld_unit_zero (S := S256x512) hz, View.ld_unit_zero (S := S512x512) hz,
    View.ld_unit_zero (S := S1x512) hz, View.ld_unit_zero (S := S512x1) hz]
  obtain ⟨-, -, -, -, -, -, -, -, -, -, -, -, -, -, e0, e1⟩ := idx_facts t
  funext y
  obtain ⟨p, q, rfl⟩ : ∃ (p : Fin 2000) (q : Fin 1), y = ix2 p q := ⟨y 0, y 1, eq_ix2 y⟩
  refine (pay_apply (iblk1 V c 0 t) (iblk1 V c 1 t) (iblk1 V c 2 t) (iblk1 V c 3 t) (iblk1 V c 4 t) (iblk1 V c 5 t)
    (iblk1 V c 6 t) p q).trans ?_
  rw [wup_blk V c t, wd0_blk V c t, b0_blk V c t, wd1_blk V c t, b1_blk V c t, wf_blk V c t]
  have hN : cfg1.N = 5 := N_1
  have hr : 2000 * t.val + p.val < 10000 := by have := t.isLt; have := p.isLt; omega
  have hrow : ∀ n : Fin 256, (iblk1 V c 0 t : Vec Ideal S2000x256 .f32) (ix2 p n)
      = (V c main_v3 : S10000x256.Idx → EReal) (ix2 ⟨2000 * t.val + p.val, hr⟩ n) :=
    fun n => sum_blk V c t (ix2 p n) (ix2 ⟨2000 * t.val + p.val, hr⟩ n) rfl rfl
  rw [funext hrow]
  rw [View.read_apply]
  exact (result_at V c (((cfg1.win 7).blk t).view.emb (ix2 p q)) ⟨2000 * t.val + p.val, hr⟩ q
    (by show win1_7.index t 0 * 2000 + 1 * p.val = 2000 * t.val + p.val; rw [e0]; omega)
    (by show win1_7.index t 1 * 1 + 1 * q.val = q.val; rw [e1]; omega)).symm

/-- An index of the output array is in point `t`'s block iff each coordinate is in the block's range on its axis. -/
theorem mem_blk (t : Fin cfg1.N) (i : S10000x1.Idx) :
    i ∈ ((cfg1.win 7).blk t).view.set ↔ ∀ a : Fin 2, win1_7.index t a * S2000x1.size a ≤ (i a).val
      ∧ (i a).val < win1_7.index t a * S2000x1.size a + S2000x1.size a := by
  show i ∈ ((View.whole main_v6).slice (win1_7.rect t)).set ↔ _
  rw [View.set_slice_whole, Rect.mem_set_unit]
  exact Iff.rfl

/-- Every index of the output array is in the block of the point its row falls in. -/
theorem cover (i : S10000x1.Idx) :
    ∃ t : Fin cfg1.N, (cfg1.win 7).flush t = true ∧ i ∈ ((cfg1.win 7).blk t).view.set := by
  have hi0 : (i 0).val < 10000 := (i 0).isLt
  have hi1 : (i 1).val < 1 := (i 1).isLt
  have hN : cfg1.N = 5 := N_1
  refine ⟨⟨(i 0).val / 2000, by rw [hN]; omega⟩, flush1_7 _, ?_⟩
  rw [mem_blk]
  obtain ⟨-, -, -, -, -, -, -, -, -, -, -, -, -, -, e0, e1⟩ := idx_facts ⟨(i 0).val / 2000, by rw [hN]; omega⟩
  intro a
  match a with
  | ⟨0, _⟩ =>
    show win1_7.index _ 0 * 2000 ≤ (i 0).val ∧ (i 0).val < win1_7.index _ 0 * 2000 + 2000
    rw [e0]; show (i 0).val / 2000 * 2000 ≤ (i 0).val ∧ (i 0).val < (i 0).val / 2000 * 2000 + 2000; omega
  | ⟨1, _⟩ =>
    show win1_7.index _ 1 * 1 ≤ (i 1).val ∧ (i 1).val < win1_7.index _ 1 * 1 + 1
    rw [e1]; omega

/-- THE REGION'S OUTPUT ARRAY after its 5 write-backs. -/
theorem final (c : Dev nD) : (dat1 V c).arrAt 7 cfg1.N = result V c :=
  (dat1 V c).arrAt_eq_of_cover 7 _ (fun t _ => flushed_eq V c t) cover

end Cert.KernelIdeal.MlpBlocks

end
-- ==== Proof.KernelValue.lean ====
/-
  The idealized kernel's result as one function of its arguments.

  Following the buffer contents through the three segments: the gate region leaves `gate` of the launch contents of the
  messages, the radial-basis rows and the projection matrix in its output array and changes nothing else; the host stretch
  scatter-adds that array by the (untouched) index array into the zero array and reshapes the two [512] biases to [1, 512]
  rows, leaving the weights as launched; the dense-stack region leaves, in the result buffer, the row-wise dense stack of
  what it finds.  A [512] array reshaped to [1, 512] reads, along its one row, the array itself.  So the result buffer
  ends at `mlp (segsum idx (gate msg rbf W_rbf)) W_up W_d0 b_d0 W_d1 b_d1 W_final`, where `segsum` names the scatter-add
  into zeros — the same host operation, on the same record of dimension numbers, that the reference applies.
-/
import proofs.«104397_j83665962926265_1_alg».proof.Proof.KernelRun
import proofs.«104397_j83665962926265_1_alg».proof.Proof.GateBlocks
import proofs.«104397_j83665962926265_1_alg».proof.Proof.MlpBlocks
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.GateMlp
open Idealize.ShloMosaic Idealize.ShloMosaic.TcCoe Idealize.ShloMosaic.ValueIdx Idealize.SL.Sem Idealize.ShloMosaic.StableHlo

/-- The segment sum: the scatter-add of the rows of `upd`, each into the row its index names, starting from zeros.
    Never opened: both programs apply it, and it is compared only through its operands. -/
def segsum (idx : (⟨S320000, .i32⟩ : BufTy).Contents (Elt Ideal)) (upd : (⟨S320000x256, .f32⟩ : BufTy).Contents (Elt Ideal)) :
    (⟨S10000x256, .f32⟩ : BufTy).Contents (Elt Ideal) :=
  Host.scatterAdd (F := Ideal) scatter_S10000x256_S320000x1_S320000x256_1_0_0_1
    (broadcastInDim S10000x256 ![] bcast_S_S10000x256 (constant (F := Ideal) S_ .f32 0x00000000#32))
    (broadcastInDim S320000x1 ![0] bcast_S320000_S320000x1_0 idx) upd

/-- The whole function of the ten arguments. -/
def G (a0 : (⟨S320000x256, .f32⟩ : BufTy).Contents (Elt Ideal)) (a1 : (⟨S320000x16, .f32⟩ : BufTy).Contents (Elt Ideal))
    (a2 : (⟨S320000, .i32⟩ : BufTy).Contents (Elt Ideal)) (a3 : (⟨S16x256, .f32⟩ : BufTy).Contents (Elt Ideal))
    (a4 : (⟨S256x512, .f32⟩ : BufTy).Contents (Elt Ideal)) (a5 : (⟨S512x512, .f32⟩ : BufTy).Contents (Elt Ideal))
    (a6 : (⟨S512, .f32⟩ : BufTy).Contents (Elt Ideal)) (a7 : (⟨S512x512, .f32⟩ : BufTy).Contents (Elt Ideal))
    (a8 : (⟨S512, .f32⟩ : BufTy).Contents (Elt Ideal)) (a9 : (⟨S512x1, .f32⟩ : BufTy).Contents (Elt Ideal)) :
    (⟨S10000x1, .f32⟩ : BufTy).Contents (Elt Ideal) :=
  mlp (segsum a2 (gate a0 a1 a3)) a4 a5 a6 a7 a8 a9

/-! ## The host stretch, from any contents `W` -/

section Host
variable (W : Valuation τ sig (Elt Ideal))

theorem after_v3 : (StableHlo.after hostOps1 W (Proc.devRef .tc main_v3) : (⟨S10000x256, .f32⟩ : BufTy).Contents (Elt Ideal))
    = segsum (W (Proc.devRef .tc main_arg2)) (W (Proc.devRef .tc main_v0)) := by
  after_results
  rfl
theorem after_v4 : (StableHlo.after hostOps1 W (Proc.devRef .tc main_v4) : (⟨S1x512, .f32⟩ : BufTy).Contents (Elt Ideal))
    = shapeCast S1x512 (W (Proc.devRef .tc main_arg6) : (⟨S512, .f32⟩ : BufTy).Contents (Elt Ideal)) shapeCasts_S512_S1x512 := by
  after_results
  rfl
theorem after_v5 : (StableHlo.after hostOps1 W (Proc.devRef .tc main_v5) : (⟨S1x512, .f32⟩ : BufTy).Contents (Elt Ideal))
    = shapeCast S1x512 (W (Proc.devRef .tc main_arg8) : (⟨S512, .f32⟩ : BufTy).Contents (Elt Ideal)) shapeCasts_S512_S1x512 := by
  after_results
  rfl
theorem after_arg4 : StableHlo.after hostOps1 W (Proc.devRef .tc main_arg4) = W (Proc.devRef .tc main_arg4) := by
  after_results
theorem after_arg5 : StableHlo.after hostOps1 W (Proc.devRef .tc main_arg5) = W (Proc.devRef .tc main_arg5) := by
  after_results
theorem after_arg7 : StableHlo.after hostOps1 W (Proc.devRef .tc main_arg7) = W (Proc.devRef .tc main_arg7) := by
  after_results
theorem after_arg9 : StableHlo.after hostOps1 W (Proc.devRef .tc main_arg9) = W (Proc.devRef .tc main_arg9) := by
  after_results

end Host

variable (m : (ℓ : Loc nD τ sig) → Buf (Elt Ideal) ℓ) (ρ : Dev nD → PrngReg)

/-! ## The contents after the gate region -/

/-- The gate region's output array holds `gate` of the launch contents. -/
theorem W1_v0 (c : Dev nD) : W1 m ρ c (Proc.devRef .tc main_v0)
    = gate (m ((c : Thread nD τ).loc main_arg0)) (m ((c : Thread nD τ).loc main_arg1)) (m ((c : Thread nD τ).loc main_arg3)) :=
  (W1_arr m ρ c 3).trans (GateBlocks.final (V0 m ρ) c)

/-- Every buffer that is no array of the gate region is as launched. -/
theorem W1_arg2 (c : Dev nD) : W1 m ρ c (Proc.devRef .tc main_arg2) = m ((c : Thread nD τ).loc main_arg2) :=
  W1_of_ne m ρ c main_arg2 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)
theorem W1_arg7 (c : Dev nD) : W1 m ρ c (Proc.devRef .tc main_arg7) = m ((c : Thread nD τ).loc main_arg7) :=
  W1_of_ne m ρ c main_arg7 (by decide)
theorem W1_arg8 (c : Dev nD) : W1 m ρ c (Proc.devRef .tc main_arg8) = m ((c : Thread nD τ).loc main_arg8) :=
  W1_of_ne m ρ c main_arg8 (by decide)
theorem W1_arg9 (c : Dev nD) : W1 m ρ c (Proc.devRef .tc main_arg9) = m ((c : Thread nD τ).loc main_arg9) :=
  W1_of_ne m ρ c main_arg9 (by decide)

/-! ## The contents the dense-stack region finds -/

theorem V2_v3 (c : Dev nD) : V2 m ρ c main_v3
    = segsum (m ((c : Thread nD τ).loc main_arg2))
        (gate (m ((c : Thread nD τ).loc main_arg0)) (m ((c : Thread nD τ).loc main_arg1)) (m ((c : Thread nD τ).loc main_arg3))) := by
  show StableHlo.after hostOps1 (W1 m ρ c) (Proc.devRef .tc main_v3) = _
  rw [after_v3, W1_arg2, W1_v0]
theorem V2_arg4 (c : Dev nD) : V2 m ρ c main_arg4 = m ((c : Thread nD τ).loc main_arg4) := by
  show StableHlo.after hostOps1 (W1 m ρ c) (Proc.devRef .tc main_arg4) = _
  rw [after_arg4, W1_arg4]
theorem V2_arg5 (c : Dev nD) : V2 m ρ c main_arg5 = m ((c : Thread nD τ).loc main_arg5) := by
  show StableHlo.after hostOps1 (W1 m ρ c) (Proc.devRef .tc main_arg5) = _
  rw [after_arg5, W1_arg5]
theorem V2_arg7 (c : Dev nD) : V2 m ρ c main_arg7 = m ((c : Thread nD τ).loc main_arg7) := by
  show StableHlo.after hostOps1 (W1 m ρ c) (Proc.devRef .tc main_arg7) = _
  rw [after_arg7, W1_arg7]
theorem V2_arg9 (c : Dev nD) : V2 m ρ c main_arg9 = m ((c : Thread nD τ).loc main_arg9) := by
  show StableHlo.after hostOps1 (W1 m ρ c) (Proc.devRef .tc main_arg9) = _
  rw [after_arg9, W1_arg9]
/-- The first bias row, read along its one row, is the bias. -/
theorem V2_v4 (c : Dev nD) (j : Fin 512) : (V2 m ρ c main_v4 : S1x512.Idx → EReal) (ix2 (0 : Fin 1) j)
    = (m ((c : Thread nD τ).loc main_arg6) : S512.Idx → EReal) (ix1 j) := by
  show (StableHlo.after hostOps1 (W1 m ρ c) (Proc.devRef .tc main_v4) : S1x512.Idx → EReal) (ix2 (0 : Fin 1) j) = _
  rw [after_v4, W1_arg6]
  exact shapeCast_a_1a_apply _ _ 0 j
/-- The second bias row likewise. -/
theorem V2_v5 (c : Dev nD) (k : Fin 512) : (V2 m ρ c main_v5 : S1x512.Idx → EReal) (ix2 (0 : Fin 1) k)
    = (m ((c : Thread nD τ).loc main_arg8) : S512.Idx → EReal) (ix1 k) := by
  show (StableHlo.after hostOps1 (W1 m ρ c) (Proc.devRef .tc main_v5) : S1x512.Idx → EReal) (ix2 (0 : Fin 1) k) = _
  rw [after_v5, W1_arg8]
  exact shapeCast_a_1a_apply _ _ 0 k

/-! ## The result -/

/-- The result buffer's last contents are `G` of the launch contents of the arguments. -/
theorem value (c : Dev nD) : W3 m ρ c (Proc.devRef .tc main_v6)
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W3_arr m ρ c 7).trans ((MlpBlocks.final (V2 m ρ) c).trans ?_)
  unfold MlpBlocks.result G mlp
  rw [V2_v3, V2_arg4, V2_arg5, V2_arg7, V2_arg9, funext (V2_v4 m ρ c), funext (V2_v5 m ρ c)]

/-- THE RUN, READ: every weakly fair execution terminates with the result buffer at `G` of the arguments, the arguments
    as launched. -/
theorem run : θ_run defs (onTc (τ := τ) (main (F := Ideal))) ⟨m, fun _ => 0, ρ⟩ (fun r => ∀ c : Dev nD,
      r.2.mem ((c.tc : Thread nD τ).loc main_v6)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value m ρ c), (h c).2⟩) (Named.run m ρ)

end Cert.KernelIdeal.KernelValue

end
-- ==== Proof.RefValue.lean ====
/-
  The reference, stage by stage, against the specification.

  The reference computes the gated messages as one whole-array product and multiply, scatter-adds them by the index
  array, and runs the dense stack on the whole [10000, ·] arrays: three products, two bias additions (each bias
  broadcast [512] → [1, 512] → [10000, 512]), two activations spelt `h · (1 / (1 + exp (-h)))`, and the last product.
  Read at an entry (r, ·), every stage is the matching stage of the one-row dense stack on row `r` of the stage
  before: a product is `Σ_k (row r) k · W k c`; a broadcast bias is the bias entry of the column; the spelt-out
  sigmoid is `logistic` (with the word 0x3F800000 denoting 1).  The scatter-add is not opened.
-/
import proofs.«104397_j83665962926265_1_alg».proof.Proof.Gen.ReferenceIdeal.Read
import proofs.«104397_j83665962926265_1_alg».proof.Proof.Spec
import proofs.«104397_j83665962926265_1_alg».proof.Proof.LibPlainDot

noncomputable section

namespace Cert.ReferenceIdeal.RefValue

open Cert.ReferenceIdeal Cert.ReferenceIdeal.Read Cert.GateMlp Cert.LibPlainDot
open Idealize.ShloMosaic Idealize.ShloMosaic.ValueIdx

/-- The reference's four shapes of product are plain. -/
theorem plain_gate : Plain dot_S320000x16_S16x256_S320000x256_1_0_0_1_n_n := ⟨rfl, rfl, rfl, rfl, rfl, rfl⟩
theorem plain_up : Plain dot_S10000x256_S256x512_S10000x512_1_0_0_1_n_n := ⟨rfl, rfl, rfl, rfl, rfl, rfl⟩
theorem plain_hid : Plain dot_S10000x512_S512x512_S10000x512_1_0_0_1_n_n := ⟨rfl, rfl, rfl, rfl, rfl, rfl⟩
theorem plain_fin : Plain dot_S10000x512_S512x1_S10000x1_1_0_0_1_n_n := ⟨rfl, rfl, rfl, rfl, rfl, rfl⟩

variable (x0 : (⟨S320000x256, .f32⟩ : BufTy).Contents (Elt Ideal))
  (x1 : (⟨S320000x16, .f32⟩ : BufTy).Contents (Elt Ideal))
  (x2 : (⟨S320000, .i32⟩ : BufTy).Contents (Elt Ideal))
  (x3 : (⟨S16x256, .f32⟩ : BufTy).Contents (Elt Ideal))
  (x4 : (⟨S256x512, .f32⟩ : BufTy).Contents (Elt Ideal))
  (x5 : (⟨S512x512, .f32⟩ : BufTy).Contents (Elt Ideal))
  (x6 : (⟨S512, .f32⟩ : BufTy).Contents (Elt Ideal))
  (x7 : (⟨S512x512, .f32⟩ : BufTy).Contents (Elt Ideal))
  (x8 : (⟨S512, .f32⟩ : BufTy).Contents (Elt Ideal))
  (x9 : (⟨S512x1, .f32⟩ : BufTy).Contents (Elt Ideal))

/-- The gated messages are `gate` of the three arrays. -/
theorem gated_eq : val_main_v1 (F := Ideal) x0 x1 x3 = gate x0 x1 x3 := by
  funext i
  obtain ⟨e, j, rfl⟩ : ∃ (e : Fin 320000) (j : Fin 256), i = ix2 e j := ⟨i 0, i 1, eq_ix2 i⟩
  show x0 (ix2 e j) * val_main_v0 (F := Ideal) x1 x3 (ix2 e j) = x0 (ix2 e j) * rowDot (fun k => x1 (ix2 e k)) x3 j
  exact congrArg (x0 (ix2 e j) * ·) (plain_gate.dotGeneral_apply none .single x1 x3 e j)

/-- The up-projection at `(r, l)`. -/
theorem up_at (r : Fin 10000) (l : Fin 512) :
    val_main_v5 (F := Ideal) x0 x1 x2 x3 x4 (ix2 r l)
      = rowDot (fun n => val_main_v4 (F := Ideal) x0 x1 x2 x3 (ix2 r n)) x4 l :=
  plain_up.dotGeneral_apply none .single (val_main_v4 (F := Ideal) x0 x1 x2 x3) x4 r l

/-- A [512] bias broadcast to [1, 512] and then over the 10000 rows reads, at `(r, c)`, the bias entry `c`. -/
theorem bias0_at (r : Fin 10000) (c : Fin 512) : val_main_v8 (F := Ideal) x6 (ix2 r c) = x6 (ix1 c) := by
  rw [val_main_v8_apply, val_main_v7_apply]
  exact congrArg x6 (funext fun a => by match a with | ⟨0, _⟩ => rfl)
theorem bias1_at (r : Fin 10000) (c : Fin 512) : val_main_v13 (F := Ideal) x8 (ix2 r c) = x8 (ix1 c) := by
  rw [val_main_v13_apply, val_main_v12_apply]
  exact congrArg x8 (funext fun a => by match a with | ⟨0, _⟩ => rfl)

/-- The first hidden layer before its activation, at `(r, j)`. -/
theorem h0_at (r : Fin 10000) (j : Fin 512) :
    val_main_v9 (F := Ideal) x0 x1 x2 x3 x4 x5 x6 (ix2 r j)
      = rowDot (fun l => val_main_v5 (F := Ideal) x0 x1 x2 x3 x4 (ix2 r l)) x5 j + x6 (ix1 j) :=
  congrArg₂ (· + ·) (plain_hid.dotGeneral_apply none .single (val_main_v5 (F := Ideal) x0 x1 x2 x3 x4) x5 r j)
    (bias0_at x6 r j)

/-- The ones the spelt-out sigmoid adds and divides: the word 0x3F800000 broadcast, read anywhere, is 1. -/
theorem one0_at (i : S10000x512.Idx) : val_main_call0_v2 (F := Ideal) i = 1 := by
  rw [val_main_call0_v2_apply, val_main_call0_cst_apply]; exact ofBits_one_f32
theorem one0'_at (i : S10000x512.Idx) : val_main_call0_v4 (F := Ideal) i = 1 := by
  rw [val_main_call0_v4_apply, val_main_call0_cst_0_apply]; exact ofBits_one_f32
theorem one1_at (i : S10000x512.Idx) : val_main_call1_v2 (F := Ideal) i = 1 := by
  rw [val_main_call1_v2_apply, val_main_call1_cst_apply]; exact ofBits_one_f32
theorem one1'_at (i : S10000x512.Idx) : val_main_call1_v4 (F := Ideal) i = 1 := by
  rw [val_main_call1_v4_apply, val_main_call1_cst_0_apply]; exact ofBits_one_f32

/-- The first activation: `h · (1 / (1 + exp (-h)))` is `swish h`. -/
theorem a0_at (i : S10000x512.Idx) :
    val_main_v10 (F := Ideal) x0 x1 x2 x3 x4 x5 x6 i = swish (val_main_v9 (F := Ideal) x0 x1 x2 x3 x4 x5 x6 i) := by
  rw [val_main_v10_apply, val_main_call0_v5_apply, one0'_at, val_main_call0_v3_apply, one0_at, val_main_call0_v1_apply,
    val_main_call0_v0_apply]
  generalize val_main_v9 (F := Ideal) x0 x1 x2 x3 x4 x5 x6 i = h
  rfl

/-- The second hidden layer before its activation, at `(r, k)`. -/
theorem h1_at (r : Fin 10000) (k : Fin 512) :
    val_main_v14 (F := Ideal) x0 x1 x2 x3 x4 x5 x6 x7 x8 (ix2 r k)
      = rowDot (fun j => val_main_v10 (F := Ideal) x0 x1 x2 x3 x4 x5 x6 (ix2 r j)) x7 k + x8 (ix1 k) :=
  congrArg₂ (· + ·) (plain_hid.dotGeneral_apply none .single (val_main_v10 (F := Ideal) x0 x1 x2 x3 x4 x5 x6) x7 r k)
    (bias1_at x8 r k)

/-- The second activation. -/
theorem a1_at (i : S10000x512.Idx) :
    val_main_v15 (F := Ideal) x0 x1 x2 x3 x4 x5 x6 x7 x8 i
      = swish (val_main_v14 (F := Ideal) x0 x1 x2 x3 x4 x5 x6 x7 x8 i) := by
  rw [val_main_v15_apply, val_main_call1_v5_apply, one1'_at, val_main_call1_v3_apply, one1_at, val_main_call1_v1_apply,
    val_main_call1_v0_apply]
  generalize val_main_v14 (F := Ideal) x0 x1 x2 x3 x4 x5 x6 x7 x8 i = h
  rfl

/-- The last product at `(r, q)`. -/
theorem out_at (r : Fin 10000) (q : Fin 1) :
    val_main_v16 (F := Ideal) x0 x1 x2 x3 x4 x5 x6 x7 x8 x9 (ix2 r q)
      = rowDot (fun k => val_main_v15 (F := Ideal) x0 x1 x2 x3 x4 x5 x6 x7 x8 (ix2 r k)) x9 q :=
  plain_fin.dotGeneral_apply none .single (val_main_v15 (F := Ideal) x0 x1 x2 x3 x4 x5 x6 x7 x8) x9 r q

/-- THE REFERENCE'S RESULT is the row-wise dense stack of its scatter-added array. -/
theorem stack_eq :
    val_main_v16 (F := Ideal) x0 x1 x2 x3 x4 x5 x6 x7 x8 x9
      = mlp (val_main_v4 (F := Ideal) x0 x1 x2 x3) x4 x5 x6 x7 x8 x9 := by
  funext i
  obtain ⟨r, q, rfl⟩ : ∃ (r : Fin 10000) (q : Fin 1), i = ix2 r q := ⟨i 0, i 1, eq_ix2 i⟩
  show _ = mlpRow (fun n => val_main_v4 (F := Ideal) x0 x1 x2 x3 (ix2 r n)) x4 x5 (fun j => x6 (ix1 j)) x7
    (fun k => x8 (ix1 k)) x9 q
  unfold mlpRow
  refine (out_at x0 x1 x2 x3 x4 x5 x6 x7 x8 x9 r q).trans ?_
  refine congrArg (fun f => rowDot f x9 q) (funext fun k => ?_)
  refine (a1_at x0 x1 x2 x3 x4 x5 x6 x7 x8 (ix2 r k)).trans (congrArg swish ?_)
  refine (h1_at x0 x1 x2 x3 x4 x5 x6 x7 x8 r k).trans ?_
  refine congrArg (fun f => rowDot f x7 k + x8 (ix1 k)) (funext fun j => ?_)
  refine (a0_at x0 x1 x2 x3 x4 x5 x6 (ix2 r j)).trans (congrArg swish ?_)
  refine (h0_at x0 x1 x2 x3 x4 x5 x6 r j).trans ?_
  refine congrArg (fun f => rowDot f x5 j + x6 (ix1 j)) (funext fun l => ?_)
  exact up_at x0 x1 x2 x3 x4 r l

end Cert.ReferenceIdeal.RefValue

end
-- ==== Proof.lean ====
/-
  Gated message passing with a segment sum and a dense stack: a two-kernel program against its whole-array reference.

  Both programs compute, from messages [320000, 256], radial-basis rows [320000, 16], receiver indices [320000] and the
  weights, the array

      out = mlp (segsum idx (gate msg rbf W_rbf)) W_up W_d0 b_d0 W_d1 b_d1 W_final          ([10000, 1])

  where `gate e j = msg e j · Σ_k rbf e k · W_rbf k j`, `segsum` adds each gated row into the row its index names
  (starting from zeros), and `mlp` applies to every row, independently, two biased 512-wide layers with the activation
  `h · logistic h` between a 256 → 512 projection and a 512 → 1 projection (Proof/Spec.lean).

  The kernel evaluates `gate` in 40 row blocks and `mlp` in 5 row blocks, with the segment sum on the host between
  them; since a gated entry depends on its own edge only and a dense-stack row on its own particle only, each block written
  is a block of rows of the whole-array function, and the blocks tile the arrays (Proof/GateBlocks.lean,
  Proof/MlpBlocks.lean, composed through the host operations in Proof/KernelValue.lean over the run of
  Proof/KernelRun.lean).  The reference evaluates the same stages on whole arrays (Proof/RefValue.lean).  The two differ
  in spelling only: a product into a zero accumulator against a host product (both the plain sum, Proof/LibPlainDot.lean);
  a bias reshaped to a [1, 512] row and broadcast against a bias broadcast twice; `logistic h` against
  `1 / (1 + exp (-h))` with the f32 word of 1.  No law used needs the entries finite, so the precondition is not opened.
  The idealization rewrote nothing, so `preserves` is `True`.
-/
import proofs.«104397_j83665962926265_1_alg».proof.Defs
import proofs.«104397_j83665962926265_1_alg».proof.Proof.Gen.Kernel
import proofs.«104397_j83665962926265_1_alg».proof.Proof.Gen.Kernel.Skeleton
import proofs.«104397_j83665962926265_1_alg».proof.Proof.Gen.Kernel.Launch
import proofs.«104397_j83665962926265_1_alg».proof.Proof.Gen.Kernel.Points
import proofs.«104397_j83665962926265_1_alg».proof.Proof.Gen.Kernel.Frame
import proofs.«104397_j83665962926265_1_alg».proof.Proof.Gen.KernelIdeal
import proofs.«104397_j83665962926265_1_alg».proof.Proof.Gen.KernelIdeal.Skeleton
import proofs.«104397_j83665962926265_1_alg».proof.Proof.Gen.KernelIdeal.Launch
import proofs.«104397_j83665962926265_1_alg».proof.Proof.Gen.KernelIdeal.Points
import proofs.«104397_j83665962926265_1_alg».proof.Proof.Gen.KernelIdeal.Frame
import proofs.«104397_j83665962926265_1_alg».proof.Proof.Gen.ReferenceIdeal
import proofs.«104397_j83665962926265_1_alg».proof.Proof.Gen.ReferenceIdeal.Run
import proofs.«104397_j83665962926265_1_alg».proof.Proof.Gen.ReferenceIdeal.Read
import proofs.«104397_j83665962926265_1_alg».proof.Proof.Gen.Pre_finite_inputs
import proofs.«104397_j83665962926265_1_alg».proof.Proof.KernelValue
import proofs.«104397_j83665962926265_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's scatter-add of its gated messages is the segment sum of `gate`: the same host operation on a
    record of the same dimension numbers, the zero array and the index column built the same way. -/
theorem ref_segsum (x0 : (⟨Cert.ReferenceIdeal.S320000x256, .f32⟩ : BufTy).Contents (Elt Ideal))
    (x1 : (⟨Cert.ReferenceIdeal.S320000x16, .f32⟩ : BufTy).Contents (Elt Ideal))
    (x2 : (⟨Cert.ReferenceIdeal.S320000, .i32⟩ : BufTy).Contents (Elt Ideal))
    (x3 : (⟨Cert.ReferenceIdeal.S16x256, .f32⟩ : BufTy).Contents (Elt Ideal)) :
    Cert.ReferenceIdeal.Read.val_main_v4 (F := Ideal) x0 x1 x2 x3
      = Cert.KernelIdeal.KernelValue.segsum x2 (Cert.GateMlp.gate x0 x1 x3) := by
  unfold Cert.ReferenceIdeal.Read.val_main_v4
  rw [Cert.ReferenceIdeal.RefValue.gated_eq]
  rfl

/-- The reference's result is the kernel's function of the arguments. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v16 (F := Ideal) m' c
      = Cert.KernelIdeal.KernelValue.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) := by
  rw [Cert.ReferenceIdeal.Read.val_main_v16_eq, Cert.ReferenceIdeal.RefValue.stack_eq, ref_segsum]
  rfl

/-- At the ideal values the two programs, run from memories agreeing on the arguments, both terminate with the result
    buffer at the same function of the arguments. -/
theorem algebraic : Cert.algebraic_KernelIdeal_ReferenceIdeal := by
  intro m ρ m' ρ' _ hagree
  refine ⟨fun c => Cert.KernelIdeal.KernelValue.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [ref_result, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
